-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S10000x1024 : Shape := ⟨2, ![10000, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_

variable [Facts]

def fn {F : FTy → Type} [FloatOps F] (main_arg0 : FVec F S4096x1024 .f32) (main_arg1 : FVec F S10000x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  main_v8
-- ==== Kernel.lean ====
abbrev S4096x1024 : Shape := ⟨2, ![4096, 1024]⟩
abbrev S10000x1024 : Shape := ⟨2, ![10000, 1024]⟩
abbrev S_ : Shape := ⟨0, ![]⟩
abbrev S4096 : Shape := ⟨1, ![4096]⟩
abbrev S4096x1 : Shape := ⟨2, ![4096, 1]⟩
abbrev S10000 : Shape := ⟨1, ![10000]⟩
abbrev S10240 : Shape := ⟨1, ![10240]⟩
abbrev S1x10240 : Shape := ⟨2, ![1, 10240]⟩
abbrev S10240x1024 : Shape := ⟨2, ![10240, 1024]⟩
abbrev S4096x10240 : Shape := ⟨2, ![4096, 10240]⟩
abbrev S1024x1024 : Shape := ⟨2, ![1024, 1024]⟩
abbrev S1280x1024 : Shape := ⟨2, ![1280, 1024]⟩
abbrev S1024x1 : Shape := ⟨2, ![1024, 1]⟩
abbrev S1x1280 : Shape := ⟨2, ![1, 1280]⟩
abbrev S1024x1280 : Shape := ⟨2, ![1024, 1280]⟩
abbrev S4096x10000 : Shape := ⟨2, ![4096, 10000]⟩

abbrev nBuf : Space → Nat
  | .hbm => 20
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S10000x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S10000x1024, .f32⟩
  | .hbm, ⟨7, _⟩ => ⟨S_, .f32⟩
  | .hbm, ⟨8, _⟩ => ⟨S10000, .f32⟩
  | .hbm, ⟨9, _⟩ => ⟨S_, .i32⟩
  | .hbm, ⟨10, _⟩ => ⟨S_, .f32⟩
  | .hbm, ⟨11, _⟩ => ⟨S10240, .f32⟩
  | .hbm, ⟨12, _⟩ => ⟨S1x10240, .f32⟩
  | .hbm, ⟨13, _⟩ => ⟨S_, .i32⟩
  | .hbm, ⟨14, _⟩ => ⟨S_, .f32⟩
  | .hbm, ⟨15, _⟩ => ⟨S10240x1024, .f32⟩
  | .hbm, ⟨16, _⟩ => ⟨S4096x1024, .bf16⟩
  | .hbm, ⟨17, _⟩ => ⟨S10240x1024, .bf16⟩
  | .hbm, ⟨18, _⟩ => ⟨S4096x10240, .f32⟩
  | .hbm, ⟨19, _⟩ => ⟨S4096x10000, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1, .f32⟩
  | .local _ .vmem, ⟨5, _⟩ => ⟨S1024x1, .f32⟩
  | .local _ .vmem, ⟨6, _⟩ => ⟨S1x1280, .f32⟩
  | .local _ .vmem, ⟨7, _⟩ => ⟨S1x1280, .f32⟩
  | .local _ .vmem, ⟨8, _⟩ => ⟨S1024x1280, .f32⟩
  | .local _ .vmem, ⟨9, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S10000x1024_S10000_d1 : S10000x1024.ReducesTo [1] S10000
  pads_S10000_S10240_02400 : S10000.Pads (![0] : Fin 1 → Nat) ![240] ![0] S10240
  bcast_S10240_S1x10240_1 : S10240.BroadcastsInDim S1x10240 (![1] : Fin 1 → Fin S1x10240.rank)
  pads_S10000x1024_S10240x1024_02400_000 : S10000x1024.Pads (![0, 0] : Fin 2 → Nat) ![240, 0] ![0, 0] S10240x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1024x1_S1024x1280 : S1024x1.Broadcasts S1024x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  slices_S4096x10240_S4096x10000_0_0 : S4096x10240.Slices ![0, 0] S4096x10000
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S10240x1024.size a
  hwx0_1 : ∀ i : grid0.Coords, EltTy.bits .bf16 = 32 ∨ (Rect.block (s := S10240x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x10240.size a
  hwx0_3 : ∀ i : grid0.Coords, EltTy.bits .f32 = 32 ∨ (Rect.block (s := S1x10240) S1x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1280.size a ≤ S4096x10240.size a
  hwx0_4 : ∀ i : grid0.Coords, EltTy.bits .f32 = 32 ∨ (Rect.block (s := S4096x10240) S1024x1280.size (cc0_transform_4 i) (hinb0_4 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1280.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S10000x1024 : Shape := ⟨2, ![10000, 1024]⟩
abbrev S_ : Shape := ⟨0, ![]⟩
abbrev S4096 : Shape := ⟨1, ![4096]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S10000x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S10000x1024, .f32⟩
  | .hbm, ⟨7, _⟩ => ⟨S_, .f32⟩
  | .hbm, ⟨8, _⟩ => ⟨S10000, .f32⟩
  | .hbm, ⟨9, _⟩ => ⟨S1x10000, .f32⟩
  | .hbm, ⟨10, _⟩ => ⟨S4096x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S_, .f32⟩
  | .hbm, ⟨15, _⟩ => ⟨S4096x10000, .f32⟩
  | .hbm, ⟨16, _⟩ => ⟨S4096x10000, .f32⟩
  | .hbm, ⟨17, _⟩ => ⟨S4096x10000, .f32⟩
  | .hbm, ⟨18, _⟩ => ⟨S_, .f32⟩
  | .hbm, ⟨19, _⟩ => ⟨S4096x10000, .f32⟩
  | .hbm, ⟨20, _⟩ => ⟨S4096x10000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S10000x1024_S10000_d1 : S10000x1024.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x1024_S10000x1024_S4096x10000_1_1_0_0_n_n_wf : DotDims.WF S4096x1024 S10000x1024 S4096x10000 [1] [1] [0] [0] [] []

variable [Facts₀]

def dot_S4096x1024_S10000x1024_S4096x10000_1_1_0_0_n_n : DotDims S4096x1024 S10000x1024 S4096x10000 where
  lhsContracting := [1]
  rhsContracting := [1]
  lhsNonContracting := [0]
  rhsNonContracting := [0]
  lhsBatch := []
  rhsBatch := []
  wf := dot_S4096x1024_S10000x1024_S4096x10000_1_1_0_0_n_n_wf

class Facts : Prop extends Facts₀ where

variable [Facts]
-- ==== Proof.Spec.lean ====
/-
  The function both programs compute, entry by entry, on the extended reals.

  For a feature matrix f : [4096, 1024] and a centre matrix c : [10000, 1024] the result at (b, r) is

      (-1/2) · ((‖f_b‖² + ‖c_r‖²) − 2 · ⟨f_b, c_r⟩),

  where each squared norm is accumulated from the zero word (0 + Σ_k x_k · x_k) and the inner product is the plain sum
  Σ_k f[b, k] · c[r, k]. The two float literals are kept as their words: both programs spell them with the same words, so
  they are never evaluated. The three ingredients are named separately so that each side can be brought to them one at a time.
-/
import Idealize.ShloMosaic.PureOps.Ideal
import Idealize.ShloMosaic.Lib.ValueIdx

noncomputable section

namespace Cert.Dist

open Idealize.ShloMosaic Idealize.ShloMosaic.ValueIdx

/-- The squared norm of row r of a matrix with 1024 columns, accumulated from the zero word. -/
def rowSq {R : Nat} (x : (⟨2, ![R, 1024]⟩ : Shape).Idx → EReal) (r : Fin R) : EReal :=
  Ideal.ofBits .f32 0x00000000#32 + ∑ k : Fin 1024, x (ix2 r k) * x (ix2 r k)

/-- The inner product of row b of f with row r of c. -/
def cross {R C : Nat} (f : (⟨2, ![R, 1024]⟩ : Shape).Idx → EReal) (c : (⟨2, ![C, 1024]⟩ : Shape).Idx → EReal)
    (b : Fin R) (r : Fin C) : EReal :=
  ∑ k : Fin 1024, f (ix2 b k) * c (ix2 r k)

/-- (-1/2) · ((s + t) − 2 · x): minus half the squared distance, from the two squared norms and the inner product. -/
def logit (s t x : EReal) : EReal :=
  Ideal.ofBits .f32 0xBF000000#32 * ((s + t) - Ideal.ofBits .f32 0x40000000#32 * x)

/-- The whole result array. -/
def G (f : (⟨2, ![4096, 1024]⟩ : Shape).Idx → EReal) (c : (⟨2, ![10000, 1024]⟩ : Shape).Idx → EReal) :
    (⟨2, ![4096, 10000]⟩ : Shape).Idx → EReal :=
  fun i => logit (rowSq f (i 0)) (rowSq c (i 1)) (cross f c (i 0) (i 1))

theorem G_apply (f : (⟨2, ![4096, 1024]⟩ : Shape).Idx → EReal) (c : (⟨2, ![10000, 1024]⟩ : Shape).Idx → EReal)
    (b : Fin 4096) (r : Fin 10000) : G f c (ix2 b r) = logit (rowSq f b) (rowSq c r) (cross f c b r) := rfl

end Cert.Dist

end
-- ==== Proof.HostIn.lean ====
/-
  What the kernel's region finds in its four input arrays, in terms of the two arguments f (features) and c (centres).

  Before the region the host computes: the row sums of f ∘ f as a column [4096, 1]; the row sums of c ∘ c, extended by 240
  padding entries to length 10240 and laid out as a row [1, 10240]; c extended by 240 padding rows to [10240, 1024] and cast
  to bf16; and f cast to bf16. On the extended reals a change of float format is the identity, and a padded array read
  below the original extent is the original array. So, for b < 4096 and r < 10000:

      features  [b, k]  = f[b, k]            centres [r, k]   = c[r, k]
      fnorm     [b, 0]  = 0 + Σ_k f[b, k]²   cnorm   [0, r]   = 0 + Σ_k c[r, k]².

  Entries of the padded arrays at r ≥ 10000 are never needed: the final slice drops the columns they feed.
-/
import proofs.«128320_j55800215110096_2_alg».proof.Proof.Gen.KernelIdeal.Frame
import proofs.«128320_j55800215110096_2_alg».proof.Proof.Spec
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal.Laws

noncomputable section

namespace Cert.KernelIdeal.Dist

open Cert.KernelIdeal Cert.KernelIdeal.Gen Idealize.ShloMosaic Idealize.ShloMosaic.TcCoe Idealize.SL.Sem
open Idealize.ShloMosaic.StableHlo Idealize.ShloMosaic.ValueIdx Cert.Dist

variable (m : (ℓ : Loc nD τ sig) → Buf (Elt Ideal) ℓ)

/-- The argument f as an array of extended reals. -/
abbrev argF (c : Dev nD) : FVec Ideal S4096x1024 .f32 := m ((c : Thread nD τ).loc main_arg0)
/-- The argument c as an array of extended reals. -/
abbrev argC (c : Dev nD) : FVec Ideal S10000x1024 .f32 := m ((c : Thread nD τ).loc main_arg1)

/-- The padding value the host uses: the integer zero converted. -/
abbrev padv : FVec Ideal S_ .f32 := sitofp .f32 (constantI S_ 32 0#32)

/-! ## The four arrays as host terms of the arguments -/

theorem V_feat (c : Dev nD) : V m c main_v8
    = (truncf .bf16 (argF m c) bitsLt_bf16_f32 : FVec Ideal S4096x1024 .bf16) := by
  dsimp only [V, V0]
  simp only [hostOps0, hostOps0_1, hostOps0_2, hostOps0_3, hostOps0_4, List.flatten_cons, List.flatten_nil, List.append_nil,
    List.cons_append, List.nil_append]
  after_results

theorem V_cent (c : Dev nD) : V m c main_v9
    = (truncf .bf16 (pad S10240x1024 ![0, 0] ![240, 0] ![0, 0] (argC m c) padv
        pads_S10000x1024_S10240x1024_02400_000 h_S_ : FVec Ideal S10240x1024 .f32) bitsLt_bf16_f32 : FVec Ideal S10240x1024 .bf16) := by
  dsimp only [V, V0]
  simp only [hostOps0, hostOps0_1, hostOps0_2, hostOps0_3, hostOps0_4, List.flatten_cons, List.flatten_nil, List.append_nil,
    List.cons_append, List.nil_append]
  after_results
  rfl

theorem V_fnorm (c : Dev nD) : V m c main_v2
    = (broadcastInDim S4096x1 ![0] bcast_S4096_S4096x1_0
        (Host.reduceAdd (mulf (argF m c) (argF m c)) (constant S_ .f32 0x00000000#32) reducesTo_S4096x1024_S4096_d1 h_S_
          : FVec Ideal S4096 .f32) : FVec Ideal S4096x1 .f32) := by
  dsimp only [V, V0]
  simp only [hostOps0, hostOps0_1, hostOps0_2, hostOps0_3, hostOps0_4, List.flatten_cons, List.flatten_nil, List.append_nil,
    List.cons_append, List.nil_append]
  after_results

theorem V_cnorm (c : Dev nD) : V m c main_v6
    = (broadcastInDim S1x10240 ![1] bcast_S10240_S1x10240_1
        (pad S10240 ![0] ![240] ![0]
          (Host.reduceAdd (mulf (argC m c) (argC m c)) (constant S_ .f32 0x00000000#32) reducesTo_S10000x1024_S10000_d1 h_S_
            : FVec Ideal S10000 .f32) padv pads_S10000_S10240_02400 h_S_ : FVec Ideal S10240 .f32) : FVec Ideal S1x10240 .f32) := by
  dsimp only [V, V0]
  simp only [hostOps0, hostOps0_1, hostOps0_2, hostOps0_3, hostOps0_4, List.flatten_cons, List.flatten_nil, List.append_nil,
    List.cons_append, List.nil_append]
  after_results
  rfl

/-! ## The host terms read at an entry -/

/-- The cast features at (b, k) are the features. -/
theorem feat_apply (x : FVec Ideal S4096x1024 .f32) (b : Fin 4096) (k : Fin 1024) :
    (truncf .bf16 x bitsLt_bf16_f32 : FVec Ideal S4096x1024 .bf16) (ix2 b k) = x (ix2 b k) := rfl

/-- The padded, cast centres at a row below 10000 are the centres. -/
theorem cent_apply (x : FVec Ideal S10000x1024 .f32) (r : Fin 10240) (hr : r.val < 10000) (k : Fin 1024) :
    (truncf .bf16 (pad S10240x1024 ![0, 0] ![240, 0] ![0, 0] x padv
        pads_S10000x1024_S10240x1024_02400_000 h_S_ : FVec Ideal S10240x1024 .f32) bitsLt_bf16_f32 : FVec Ideal S10240x1024 .bf16)
      (ix2 r k) = x (ix2 (⟨r.val, hr⟩ : Fin 10000) k) := by
  show pad S10240x1024 ![0, 0] ![240, 0] ![0, 0] x padv pads_S10000x1024_S10240x1024_02400_000 h_S_ (ix2 r k) = _
  exact pad_apply_of_inside _ _ _ x padv pads_S10000x1024_S10240x1024_02400_000 h_S_ (ix2 r k)
    (ix2 (⟨r.val, hr⟩ : Fin 10000) k) (fun a => match a with
      | ⟨0, _⟩ => by show r.val = 0 + r.val * (0 + 1); omega
      | ⟨1, _⟩ => by show k.val = 0 + k.val * (0 + 1); omega)

/-- The host's sum of squares along the rows of the features, at row b, is the squared norm of that row. -/
theorem sumsq_feat_apply (x : FVec Ideal S4096x1024 .f32) (b : Fin 4096) :
    (Host.reduceAdd (mulf x x) (constant S_ .f32 0x00000000#32) reducesTo_S4096x1024_S4096_d1 h_S_ : FVec Ideal S4096 .f32) (ix1 b)
      = rowSq x b := by
  generalize hy : mulf x x = y
  simp only [Host.reduceAdd, Ideal.hostReduceAdd_def]
  rw [Ideal.hostReduceAdd_single reducesTo_S4096x1024_S4096_d1 (by decide)]
  unfold rowSq
  refine congrArg (_ + ·) (Finset.sum_congr rfl fun k _ => ?_)
  subst hy
  exact congrArg (fun i => x i * x i) (funext fun a => Fin.ext (by match a with | ⟨0, _⟩ => rfl | ⟨1, _⟩ => rfl))

/-- The same for the centres. -/
theorem sumsq_cent_apply (x : FVec Ideal S10000x1024 .f32) (r : Fin 10000) :
    (Host.reduceAdd (mulf x x) (constant S_ .f32 0x00000000#32) reducesTo_S10000x1024_S10000_d1 h_S_ : FVec Ideal S10000 .f32) (ix1 r)
      = rowSq x r := by
  generalize hy : mulf x x = y
  simp only [Host.reduceAdd, Ideal.hostReduceAdd_def]
  rw [Ideal.hostReduceAdd_single reducesTo_S10000x1024_S10000_d1 (by decide)]
  unfold rowSq
  refine congrArg (_ + ·) (Finset.sum_congr rfl fun k _ => ?_)
  subst hy
  exact congrArg (fun i => x i * x i) (funext fun a => Fin.ext (by match a with | ⟨0, _⟩ => rfl | ⟨1, _⟩ => rfl))

/-- The column of squared feature norms at (b, 0). -/
theorem fnorm_apply (x : FVec Ideal S4096x1024 .f32) (b : Fin 4096) :
    (broadcastInDim S4096x1 ![0] bcast_S4096_S4096x1_0
        (Host.reduceAdd (mulf x x) (constant S_ .f32 0x00000000#32) reducesTo_S4096x1024_S4096_d1 h_S_
          : FVec Ideal S4096 .f32) : FVec Ideal S4096x1 .f32) (ix2 b (0 : Fin 1)) = rowSq x b := by
  refine (broadcastInDim_apply _ bcast_S4096_S4096x1_0 _ (ix2 b (0 : Fin 1)) (ix1 b) (fun a => match a with
    | ⟨0, _⟩ => by show b.val = if (4096 : Nat) = 1 then 0 else b.val; rw [if_neg (by decide)])).trans ?_
  exact sumsq_feat_apply x b

/-- The padded row of squared centre norms at (0, r), r below 10000. -/
theorem cnorm_apply (x : FVec Ideal S10000x1024 .f32) (r : Fin 10240) (hr : r.val < 10000) :
    (broadcastInDim S1x10240 ![1] bcast_S10240_S1x10240_1
        (pad S10240 ![0] ![240] ![0]
          (Host.reduceAdd (mulf x x) (constant S_ .f32 0x00000000#32) reducesTo_S10000x1024_S10000_d1 h_S_
            : FVec Ideal S10000 .f32) padv pads_S10000_S10240_02400 h_S_ : FVec Ideal S10240 .f32) : FVec Ideal S1x10240 .f32)
      (ix2 (0 : Fin 1) r) = rowSq x (⟨r.val, hr⟩ : Fin 10000) := by
  refine (broadcastInDim_apply _ bcast_S10240_S1x10240_1 _ (ix2 (0 : Fin 1) r) (ix1 r) (fun a => match a with
    | ⟨0, _⟩ => by show r.val = if (10240 : Nat) = 1 then 0 else r.val; rw [if_neg (by decide)])).trans ?_
  refine (pad_apply_of_inside _ _ _ _ padv pads_S10000_S10240_02400 h_S_ (ix1 r) (ix1 (⟨r.val, hr⟩ : Fin 10000))
    (fun a => match a with
      | ⟨0, _⟩ => by show r.val = 0 + r.val * (0 + 1); omega)).trans ?_
  exact sumsq_cent_apply x _

/-! ## The region's input arrays at an entry -/

theorem V_feat_apply (c : Dev nD) (b : Fin 4096) (k : Fin 1024) :
    (V m c main_v8 : FVec Ideal S4096x1024 .bf16) (ix2 b k) = argF m c (ix2 b k) := by
  rw [V_feat]; rfl

theorem V_cent_apply (c : Dev nD) (r : Fin 10240) (hr : r.val < 10000) (k : Fin 1024) :
    (V m c main_v9 : FVec Ideal S10240x1024 .bf16) (ix2 r k) = argC m c (ix2 (⟨r.val, hr⟩ : Fin 10000) k) := by
  rw [V_cent]; exact cent_apply _ r hr k

theorem V_fnorm_apply (c : Dev nD) (b : Fin 4096) :
    (V m c main_v2 : FVec Ideal S4096x1 .f32) (ix2 b (0 : Fin 1)) = rowSq (argF m c) b := by
  rw [V_fnorm]; exact fnorm_apply _ b

theorem V_cnorm_apply (c : Dev nD) (r : Fin 10240) (hr : r.val < 10000) :
    (V m c main_v6 : FVec Ideal S1x10240 .f32) (ix2 (0 : Fin 1) r) = rowSq (argC m c) (⟨r.val, hr⟩ : Fin 10000) := by
  rw [V_cnorm]; exact cnorm_apply _ r hr

end Cert.KernelIdeal.Dist

end
-- ==== Proof.Payload.lean ====
/-
  The kernel body's stored value, read at one entry of the [1024, 1280] output block.

  With f the [1024, 1024] block of features, c the [1280, 1024] block of centres, a the [1024, 1] block of squared feature norms
  and b the [1, 1280] block of squared centre norms, entry (p, q) of the stored value is

      (-1/2) · ((a[p, 0] + b[0, q]) − 2 · Σ_k f[p, k] · c[q, k]).

  The two broadcasts read their operand at the unit coordinate, the matrix product into a zero accumulator is the plain sum over
  the contracted axis, and every other operation acts entry by entry on the extended reals.
-/
import proofs.«128320_j55800215110096_2_alg».proof.Proof.Gen.KernelIdeal.Skeleton
import proofs.«128320_j55800215110096_2_alg».proof.Proof.Spec
import Idealize.ShloMosaic.Lib.Pipeline.Value
import Idealize.ShloMosaic.Lib.ValueIdx
import Idealize.ShloMosaic.PureOps.Ideal.Laws

noncomputable section

namespace Cert.KernelIdeal.Dist

open Cert.KernelIdeal Cert.KernelIdeal.Gen Idealize.ShloMosaic Idealize.ShloMosaic.ValueIdx Cert.Dist

/-- A column [1024, 1] broadcast along the second axis reads the column at the row of the entry. -/
theorem bcast_col_apply (x : FVec Ideal S1024x1 .f32) (h : S1024x1.Broadcasts S1024x1280) (p : Fin 1024) (q : Fin 1280) :
    broadcastTo S1024x1280 x h (ix2 p q) = x (ix2 p (0 : Fin 1)) :=
  broadcastTo_apply x h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row [1, 1280] broadcast along the first axis reads the row at the column of the entry. -/
theorem bcast_row_apply (x : FVec Ideal S1x1280 .f32) (h : S1x1280.Broadcasts S1024x1280) (p : Fin 1024) (q : Fin 1280) :
    broadcastTo S1024x1280 x h (ix2 p q) = x (ix2 (0 : Fin 1) q) :=
  broadcastTo_apply x h (ix2 p q) (ix2 (0 : Fin 1) q) (fun a => match a with
    | ⟨0, _⟩ => by show 0 = if (1 : Nat) = 1 then 0 else p.val; rw [if_pos rfl]
    | ⟨1, _⟩ => by show q.val = if (1280 : Nat) = 1 then 0 else q.val; rw [if_neg (by decide)])

/-- The dimension numbers of the block product: rows of f against rows of c, contracting the feature axis. -/
abbrev dd := dot_S1024x1024_S1280x1024_S1024x1280_1_1_0_0_n_n

theorem lhs_0 (i : S1024x1280.Idx) (r : dd.contr.Idx) : (dd.lhsIdx i r 0).val = (i 0).val := by
  unfold DotDims.lhsIdx
  rw [dif_neg (show ¬(0 : Fin S1024x1024.rank) ∈ dd.lhsBatch by decide),
    dif_pos (show (0 : Fin S1024x1024.rank) ∈ dd.lhsNonContracting by decide)]
  rfl
theorem lhs_1 (i : S1024x1280.Idx) (r : dd.contr.Idx) : (dd.lhsIdx i r 1).val = (r ⟨0, by decide⟩).val :=
  dd.lhsIdx_val_of_single rfl i r
theorem rhs_0 (i : S1024x1280.Idx) (r : dd.contr.Idx) : (dd.rhsIdx i r 0).val = (i 1).val := by
  unfold DotDims.rhsIdx
  rw [dif_neg (show ¬(0 : Fin S1280x1024.rank) ∈ dd.rhsBatch by decide),
    dif_pos (show (0 : Fin S1280x1024.rank) ∈ dd.rhsNonContracting by decide)]
  rfl
theorem rhs_1 (i : S1024x1280.Idx) (r : dd.contr.Idx) : (dd.rhsIdx i r 1).val = (r ⟨0, by decide⟩).val :=
  dd.rhsIdx_val_of_single rfl i r

/-- The block product f · cᵀ into a zero accumulator, at entry (p, q): the sum over the 1024 feature coordinates. -/
theorem matmul_at (x0 : FVec Ideal S1024x1024 .bf16) (x1 : FVec Ideal S1280x1024 .bf16) (p : Fin 1024) (q : Fin 1280) :
    matmul dd none x0 x1 (constant S1024x1280 .f32 0x00000000#32) (ix2 p q)
      = ∑ k : Fin 1024, x0 (ix2 p k) * x1 (ix2 q k) := by
  simp only [matmul]
  rw [Ideal.matmul_constant_zero_apply, ← Equiv.sum_comp (contrEquiv1 dd 1024 rfl rfl).symm]
  refine Finset.sum_congr rfl fun k _ => ?_
  have hk := contrEquiv1_symm_val dd 1024 rfl rfl k
  have el : dd.lhsIdx (ix2 p q) ((contrEquiv1 dd 1024 rfl rfl).symm k) = ix2 p k :=
    funext fun a => Fin.ext (by
      match a with
      | ⟨0, _⟩ => exact lhs_0 _ _
      | ⟨1, _⟩ => exact (lhs_1 _ _).trans hk)
  have er : dd.rhsIdx (ix2 p q) ((contrEquiv1 dd 1024 rfl rfl).symm k) = ix2 q k :=
    funext fun a => Fin.ext (by
      match a with
      | ⟨0, _⟩ => exact rhs_0 _ _
      | ⟨1, _⟩ => exact (rhs_1 _ _).trans hk)
  rw [el, er]

/-- The stored value at entry (p, q), in terms of the four loaded blocks: minus half the squared distance built from the
    block of squared feature norms at (p, 0), the block of squared centre norms at (0, q), and the inner product of row p of
    the feature block with row q of the centre block. -/
theorem pay_apply (x0 : Vec Ideal S1024x1024 .bf16) (x1 : Vec Ideal S1280x1024 .bf16) (x2 : Vec Ideal S1024x1 .f32)
    (x3 : Vec Ideal S1x1280 .f32) (p : Fin 1024) (q : Fin 1280) :
    k0_pay1 (F := Ideal) x0 x1 x2 x3 (ix2 p q)
      = logit (x2 (ix2 p (0 : Fin 1))) (x3 (ix2 (0 : Fin 1) q)) (cross x0 x1 p q) := by
  unfold k0_pay1 logit cross
  simp only [shapeCast_self]
  show Ideal.ofBits .f32 0xBF000000#32 * ((broadcastTo S1024x1280 x2 broadcasts_S1024x1_S1024x1280 (ix2 p q)
        + broadcastTo S1024x1280 x3 broadcasts_S1x1280_S1024x1280 (ix2 p q))
      - Ideal.ofBits .f32 0x40000000#32 * matmul dd none x0 x1 (constant S1024x1280 .f32 0x00000000#32) (ix2 p q)) = _
  rw [bcast_col_apply, bcast_row_apply, matmul_at]

end Cert.KernelIdeal.Dist

end
-- ==== Proof.Blocks.lean ====
/-
  From the blocks the grid points write back to the whole padded result array.

  The grid has 4 × 8 points; point (i, j) reads rows [1024·i, 1024·i + 1024) of the features and of the squared feature
  norms, rows [1280·j, 1280·j + 1280) of the padded centres and the same columns of the padded squared centre norms, and writes
  block (i, j) of the [4096, 10240] result. So entry (p, q) of the block written at (i, j) is the padded result at
  (1024·i + p, 1280·j + q), where the padded result at (b, r) is minus half the squared distance built from the squared
  norms at b and r and the inner product of row b of the features with row r of the padded centres. The 32 blocks tile the
  array (the block holding (b, r) is (b / 1024, r / 1280)), so the array ends holding the padded result everywhere.
-/
import proofs.«128320_j55800215110096_2_alg».proof.Proof.Gen.KernelIdeal.Frame
import proofs.«128320_j55800215110096_2_alg».proof.Proof.Spec
import proofs.«128320_j55800215110096_2_alg».proof.Proof.Payload
import Idealize.ShloMosaic.Lib.Pipeline.Value
import Idealize.ShloMosaic.Lib.ValueIdx

noncomputable section

namespace Cert.KernelIdeal.Dist

open Cert.KernelIdeal Cert.KernelIdeal.Gen Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ)

theorem zeros2 : (![0, 0] : Fin 2 → Nat) = fun _ => 0 := funext fun a => by fin_cases a <;> rfl

/-- The padded result as a function of the four arrays the region reads: cast features, padded cast centres, the column of
    squared feature norms and the padded row of squared centre norms. -/
def Gp (A0 : FVec Ideal S4096x1024 .bf16) (A1 : FVec Ideal S10240x1024 .bf16) (A2 : FVec Ideal S4096x1 .f32)
    (A3 : FVec Ideal S1x10240 .f32) : FVec Ideal S4096x10240 .f32 :=
  fun i => logit (A2 (ix2 (i 0) (0 : Fin 1))) (A3 (ix2 (0 : Fin 1) (i 1))) (cross A0 A1 (i 0) (i 1))

theorem Gp_apply (A0 : FVec Ideal S4096x1024 .bf16) (A1 : FVec Ideal S10240x1024 .bf16) (A2 : FVec Ideal S4096x1 .f32)
    (A3 : FVec Ideal S1x10240 .f32) (b : Fin 4096) (r : Fin 10240) :
    Gp A0 A1 A2 A3 (ix2 b r) = logit (A2 (ix2 b (0 : Fin 1))) (A3 (ix2 (0 : Fin 1) r)) (cross A0 A1 b r) := rfl

/-- If the loaded blocks are rows b of the features and of the feature norms and rows r of the centres and of the centre
    norms, the stored value at (p, q) is the padded result at (b, r). -/
theorem pay_eq_Gp (x0 : Vec Ideal S1024x1024 .bf16) (x1 : Vec Ideal S1280x1024 .bf16) (x2 : Vec Ideal S1024x1 .f32)
    (x3 : Vec Ideal S1x1280 .f32) (A0 : FVec Ideal S4096x1024 .bf16) (A1 : FVec Ideal S10240x1024 .bf16)
    (A2 : FVec Ideal S4096x1 .f32) (A3 : FVec Ideal S1x10240 .f32) (p : Fin 1024) (q : Fin 1280) (b : Fin 4096) (r : Fin 10240)
    (h0 : ∀ k : Fin 1024, x0 (ix2 p k) = A0 (ix2 b k)) (h1 : ∀ k : Fin 1024, x1 (ix2 q k) = A1 (ix2 r k))
    (h2 : x2 (ix2 p (0 : Fin 1)) = A2 (ix2 b (0 : Fin 1))) (h3 : x3 (ix2 (0 : Fin 1) q) = A3 (ix2 (0 : Fin 1) r)) :
    k0_pay1 (F := Ideal) x0 x1 x2 x3 (ix2 p q) = Gp A0 A1 A2 A3 (ix2 b r) := by
  rw [pay_apply, Gp_apply, h2, h3]
  refine congrArg (logit _ _) ?_
  unfold cross
  exact Finset.sum_congr rfl fun k _ => by rw [h0 k, h1 k]

/-- The index maps over the grid: the features and their norms move with the result's row block, the centres and their norms
    with its column block, and the other block coordinate of each input is 0; the result's block indices stay in range. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every block of the result is some point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-- What point t writes back is block t of the padded result of the arrays as the region finds them. -/
theorem flushed_eq (c : Dev nD) (t : Fin cfg0.N) :
    (dats m 0 c).flushed 4 t = ((cfg0.win 4).blk t).view.read (Elt Ideal)
      (Gp (V m c main_v8) (V m c main_v9) (V m c main_v2) (V m c main_v6)) := by
  show (cfg0.win 4).cut (grid0.coords t) ((dats m 0 c).after 4 t) = _
  rw [after0_4]
  unfold out0_4
  rw [View.canon_unit_zero zeros2]
  simp only [View.ld_unit_zero (S := S1024x1024) zeros2, View.ld_unit_zero (S := S1280x1024) zeros2,
    View.ld_unit_zero (S := S1024x1) zeros2, View.ld_unit_zero (S := S1x1280) zeros2]
  obtain ⟨e00, e01, e10, e11, e20, e21, e30, e31, l0, l1⟩ := idx_facts t
  funext j
  obtain ⟨p, q, rfl⟩ : ∃ (p : Fin 1024) (q : Fin 1280), j = ix2 p q := ⟨j 0, j 1, eq_ix2 j⟩
  have hp : p.val < 1024 := p.isLt
  have hq : q.val < 1280 := q.isLt
  have hb : win0_4.index t (0 : Fin 2) * 1024 + p.val < 4096 := by omega
  have hr : win0_4.index t (1 : Fin 2) * 1280 + q.val < 10240 := by omega
  have i4 : ((cfg0.win 4).blk t).view.emb (ix2 p q)
      = ix2 (⟨win0_4.index t (0 : Fin 2) * 1024 + p.val, hb⟩ : Fin 4096) (⟨win0_4.index t (1 : Fin 2) * 1280 + q.val, hr⟩ : Fin 10240) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1280 + 1 * q.val = win0_4.index t (1 : Fin 2) * 1280 + q.val; omega
  have i0 : ∀ k : Fin 1024, ((cfg0.win 0).blk t).view.emb (ix2 p k)
      = ix2 (⟨win0_4.index t (0 : Fin 2) * 1024 + p.val, hb⟩ : Fin 4096) k := fun k => by
    have hk : k.val < 1024 := k.isLt
    funext a; apply Fin.ext
    match a with
    | ⟨0, _⟩ => show win0_0.index t (0 : Fin 2) * 1024 + 1 * p.val = win0_4.index t (0 : Fin 2) * 1024 + p.val; omega
    | ⟨1, _⟩ => show win0_0.index t (1 : Fin 2) * 1024 + 1 * k.val = k.val; omega
  have i1 : ∀ k : Fin 1024, ((cfg0.win 1).blk t).view.emb (ix2 q k)
      = ix2 (⟨win0_4.index t (1 : Fin 2) * 1280 + q.val, hr⟩ : Fin 10240) k := fun k => by
    have hk : k.val < 1024 := k.isLt
    funext a; apply Fin.ext
    match a with
    | ⟨0, _⟩ => show win0_1.index t (0 : Fin 2) * 1280 + 1 * q.val = win0_4.index t (1 : Fin 2) * 1280 + q.val; omega
    | ⟨1, _⟩ => show win0_1.index t (1 : Fin 2) * 1024 + 1 * k.val = k.val; omega
  have i2 : ((cfg0.win 2).blk t).view.emb (ix2 p (0 : Fin 1))
      = ix2 (⟨win0_4.index t (0 : Fin 2) * 1024 + p.val, hb⟩ : Fin 4096) (0 : Fin 1) := by
    funext a; apply Fin.ext
    match a with
    | ⟨0, _⟩ => show win0_2.index t (0 : Fin 2) * 1024 + 1 * p.val = win0_4.index t (0 : Fin 2) * 1024 + p.val; omega
    | ⟨1, _⟩ => show win0_2.index t (1 : Fin 2) * 1 + 1 * 0 = 0; omega
  have i3 : ((cfg0.win 3).blk t).view.emb (ix2 (0 : Fin 1) q)
      = ix2 (0 : Fin 1) (⟨win0_4.index t (1 : Fin 2) * 1280 + q.val, hr⟩ : Fin 10240) := by
    funext a; apply Fin.ext
    match a with
    | ⟨0, _⟩ => show win0_3.index t (0 : Fin 2) * 1 + 1 * 0 = 0; omega
    | ⟨1, _⟩ => show win0_3.index t (1 : Fin 2) * 1280 + 1 * q.val = win0_4.index t (1 : Fin 2) * 1280 + q.val; omega
  show k0_pay1 (F := Ideal) (iblk m c 0 t) (iblk m c 1 t) (iblk m c 2 t) (iblk m c 3 t) (ix2 p q)
    = Gp (V m c main_v8) (V m c main_v9) (V m c main_v2) (V m c main_v6) (((cfg0.win 4).blk t).view.emb (ix2 p q))
  rw [i4]
  refine pay_eq_Gp _ _ _ _ _ _ _ _ p q _ _ (fun k => ?_) (fun k => ?_) ?_ ?_
  · show V m c main_v8 (((cfg0.win 0).blk t).view.emb (ix2 p k)) = _
    rw [i0 k]
  · show V m c main_v9 (((cfg0.win 1).blk t).view.emb (ix2 q k)) = _
    rw [i1 k]
  · show V m c main_v2 (((cfg0.win 2).blk t).view.emb (ix2 p (0 : Fin 1))) = _
    rw [i2]
  · show V m c main_v6 (((cfg0.win 3).blk t).view.emb (ix2 (0 : Fin 1) q)) = _
    rw [i3]

/-- An index of the result array is in point t's block iff each coordinate is in the block's range on its axis. -/
theorem mem_blk (t : Fin cfg0.N) (i : S4096x10240.Idx) :
    i ∈ ((cfg0.win 4).blk t).view.set ↔ ∀ a : Fin 2, win0_4.index t a * S1024x1280.size a ≤ (i a).val
      ∧ (i a).val < win0_4.index t a * S1024x1280.size a + S1024x1280.size a := by
  show i ∈ ((View.whole main_v10).slice (win0_4.rect t)).set ↔ _
  rw [View.set_slice_whole, Rect.mem_set_unit]
  exact Iff.rfl

/-- Every entry of the result array is in the block of some point that writes back. -/
theorem cover (i : S4096x10240.Idx) :
    ∃ t : Fin cfg0.N, (cfg0.win 4).flush t = true ∧ i ∈ ((cfg0.win 4).blk t).view.set := by
  have hi0 : (i 0).val < 4096 := (i 0).isLt
  have hi1 : (i 1).val < 10240 := (i 1).isLt
  obtain ⟨t, ht⟩ := idx_onto ⟨(i 0).val / 1024, by omega⟩ ⟨(i 1).val / 1280, by omega⟩
  have q0 : win0_4.index t (0 : Fin 2) = (i 0).val / 1024 := congrFun ht 0
  have q1 : win0_4.index t (1 : Fin 2) = (i 1).val / 1280 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1280 ≤ (i 1).val ∧ (i 1).val < win0_4.index t (1 : Fin 2) * 1280 + 1280
    omega

/-- The result array after the region: the padded result of the arrays as the region finds them. -/
theorem final (c : Dev nD) :
    (dats m 0 c).arrAt 4 cfg0.N = Gp (V m c main_v8) (V m c main_v9) (V m c main_v2) (V m c main_v6) :=
  (dats m 0 c).arrAt_eq_of_cover 4 _ (fun t _ => flushed_eq m c t) cover

end Cert.KernelIdeal.Dist

end
-- ==== Proof.KernelRun.lean ====
/-
  The kernel program's run, read at its result.

  After the region the host cuts the padded [4096, 10240] result down to its first 10000 columns. Entry (b, r) of the cut is
  the padded result at (b, r), r < 10000, and there every ingredient is the specification's: the region's feature array is f,
  its centre array agrees with c on rows below 10000, and the two norm arrays hold the squared norms of row b of f and of row r
  of c. So the program's result array ends holding the specification of its two arguments, which themselves end unchanged.
-/
import proofs.«128320_j55800215110096_2_alg».proof.Proof.Gen.KernelIdeal.Frame
import proofs.«128320_j55800215110096_2_alg».proof.Proof.Spec
import proofs.«128320_j55800215110096_2_alg».proof.Proof.HostIn
import proofs.«128320_j55800215110096_2_alg».proof.Proof.Blocks
import Idealize.ShloMosaic.Lib.StableHlo.Run
import Idealize.ShloMosaic.Lib.Pipeline.Value
import Idealize.ShloMosaic.Lib.ValueIdx

noncomputable section

namespace Cert.KernelIdeal.Dist

open Cert.KernelIdeal Cert.KernelIdeal.Gen Idealize.ShloMosaic Idealize.ShloMosaic.TcCoe Idealize.SL.Sem
open Idealize.ShloMosaic.StableHlo Idealize.ShloMosaic.ValueIdx Cert.Dist
open Idealize.ShloMosaic.Pipeline (Dat)

variable (m : (ℓ : Loc nD τ sig) → Buf (Elt Ideal) ℓ) (ρ : Dev nD → PrngReg)

/-- The padded result of the region's arrays, at a column below 10000, is the specification of the two arguments. -/
theorem Gp_eq_G (c : Dev nD) (b : Fin 4096) (r : Fin 10240) (hr : r.val < 10000) :
    Gp (V m c main_v8) (V m c main_v9) (V m c main_v2) (V m c main_v6) (ix2 b r)
      = G (argF m c) (argC m c) (ix2 b (⟨r.val, hr⟩ : Fin 10000)) := by
  rw [Gp_apply, G_apply, V_fnorm_apply, V_cnorm_apply m c r hr]
  refine congrArg (logit _ _) ?_
  unfold cross
  exact Finset.sum_congr rfl fun k _ => by rw [V_feat_apply, V_cent_apply m c r hr k]

/-- The program's result array after the host's final cut. -/
theorem result_eq (c : Dev nD) :
    Pipeline.afterTail₀ cfgs (dats m) 0 (V0 m) [hostOps1] c main_v11 = G (argF m c) (argC m c) := by
  unfold Pipeline.afterTail₀
  show StableHlo.after hostOps1 _ (Proc.devRef .tc main_v11) = _
  after_results
  rw [Pipeline.withArrays_arr spec0 launch0.win.arr_inj c _ _ 4, final]
  funext i
  obtain ⟨b, r, rfl⟩ : ∃ (b : Fin 4096) (r : Fin 10000), i = ix2 b r := ⟨i 0, i 1, eq_ix2 i⟩
  have hr : r.val < 10240 := by have := r.isLt; omega
  refine (extractStridedSlice_apply _ _ slices_S4096x10240_S4096x10000_0_0 (ix2 b r) (ix2 b (⟨r.val, hr⟩ : Fin 10240))
    (fun a => match a with
      | ⟨0, _⟩ => by show b.val = 0 + b.val; omega
      | ⟨1, _⟩ => by show r.val = 0 + r.val; omega)).trans ?_
  exact Gp_eq_G m c b ⟨r.val, hr⟩ r.isLt

/-- Every weakly fair execution of the kernel program terminates with its result array at the specification of the two
    arguments, and the arguments unchanged. -/
theorem run : θ_run defs (onTc (τ := τ) (main (F := Ideal))) ⟨m, fun _ => 0, ρ⟩ fun r => ∀ c : Dev nD,
      r.2.mem ((c : Thread nD τ).loc main_v11) = G (argF m c) (argC m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Dist

end
-- ==== Proof.RefValue.lean ====
/-
  The reference's result is the specification.

  The reference computes, for every (b, r): the squared norm of row b of the features and of row r of the centres (each a sum
  from the zero word, broadcast along the other axis), their inner product (one contraction over the feature axis), and
  (-1/2) · ((‖f_b‖² + ‖c_r‖²) − 2 · ⟨f_b, c_r⟩) with the same two literal words. Read one stage at a time at the entry (b, r),
  every broadcast reads its operand at the coordinate it keeps, so the three ingredients are exactly the specification's.
-/
import proofs.«128320_j55800215110096_2_alg».proof.Proof.Gen.ReferenceIdeal.Read
import proofs.«128320_j55800215110096_2_alg».proof.Proof.Spec
import Idealize.ShloMosaic.Lib.ValueIdx

noncomputable section

namespace Cert.ReferenceIdeal.Dist

open Cert.ReferenceIdeal Cert.ReferenceIdeal.Gen Cert.ReferenceIdeal.Read Idealize.ShloMosaic Idealize.ShloMosaic.ValueIdx Cert.Dist

/-- The reference's last stage, as a function of the two arguments, is the specification. -/
theorem ref_eq_G (x0 : (⟨S4096x1024, .f32⟩ : BufTy).Contents (Elt Ideal)) (x1 : (⟨S10000x1024, .f32⟩ : BufTy).Contents (Elt Ideal)) :
    val_main_v14 (F := Ideal) x0 x1 = G x0 x1 := by
  funext i
  obtain ⟨b, r, rfl⟩ : ∃ (b : Fin 4096) (r : Fin 10000), i = ix2 b r := ⟨i 0, i 1, eq_ix2 i⟩
  have e1 : ∀ k : Fin 1024, idx_main_v1 (idx_main_v2 (idx_main_v7 (ix2 b r))) k = ix2 b k := fun k =>
    funext fun a => Fin.ext (by match a with | ⟨0, _⟩ => rfl | ⟨1, _⟩ => rfl)
  have e4 : ∀ k : Fin 1024, idx_main_v4 (idx_main_v5 (idx_main_v8 (ix2 b r))) k = ix2 r k := fun k =>
    funext fun a => Fin.ext (by match a with | ⟨0, _⟩ => rfl | ⟨1, _⟩ => rfl)
  have el : ∀ k : Fin 1024, lidx_main_v6 (ix2 b r) k = ix2 b k := fun k =>
    funext fun a => Fin.ext (by match a with | ⟨0, _⟩ => rfl | ⟨1, _⟩ => rfl)
  have er : ∀ k : Fin 1024, ridx_main_v6 (ix2 b r) k = ix2 r k := fun k =>
    funext fun a => Fin.ext (by match a with | ⟨0, _⟩ => rfl | ⟨1, _⟩ => rfl)
  rw [G_apply, val_main_v14_apply, val_main_v13_apply, val_main_cst_2_apply, val_main_v12_apply, val_main_v9_apply,
    val_main_v7_apply, val_main_v2_apply, val_main_v1_apply, val_main_v8_apply, val_main_v5_apply, val_main_v4_apply,
    val_main_v11_apply, val_main_v10_apply, val_main_cst_1_apply, val_main_v6_apply]
  simp only [e1, e4, el, er, val_main_v0_apply, val_main_v3_apply, val_main_cst_apply, val_main_cst_0_apply]
  rfl

end Cert.ReferenceIdeal.Dist

end
-- ==== Proof.lean ====
/-
  Minus half the squared distance between every feature row and every class centre: the tiled kernel against the plain
  reference, on the extended reals.

  Both programs compute, for a feature matrix f : [4096, 1024] and a centre matrix c : [10000, 1024],

      out[b, r] = (-1/2) · ((‖f_b‖² + ‖c_r‖²) − 2 · ⟨f_b, c_r⟩)

  with the squared norms accumulated from zero and the inner product a plain sum over the 1024 coordinates, the two literals
  (-1/2 and 2) spelt with the same words. The kernel pads the centres and their norms to 10240 rows so that 4 × 8 blocks of
  [1024, 1280] tile the padded result, rounds the matrix operands to bf16 (the identity on the extended reals), and cuts the
  padding off at the end; the reference does the same arithmetic in one piece. Since the two sides apply the same operations
  in the same grouping to the same numbers, no algebraic law is needed beyond reading each array at an entry, and the
  precondition (finite inputs) is never opened.

  The modules: Spec (the function above), Payload (the kernel body's stored value at an entry), HostIn (what the host
  prepares for the region, at an entry), Blocks (the written blocks tile the padded result array), KernelRun (the final cut
  and the kernel program's run), RefValue (the reference's stages compose to the function above).
-/
import proofs.«128320_j55800215110096_2_alg».proof.Defs
import proofs.«128320_j55800215110096_2_alg».proof.Proof.Gen.Kernel
import proofs.«128320_j55800215110096_2_alg».proof.Proof.Gen.Kernel.Frame
import proofs.«128320_j55800215110096_2_alg».proof.Proof.Gen.KernelIdeal
import proofs.«128320_j55800215110096_2_alg».proof.Proof.Gen.KernelIdeal.Frame
import proofs.«128320_j55800215110096_2_alg».proof.Proof.Gen.ReferenceIdeal
import proofs.«128320_j55800215110096_2_alg».proof.Proof.Gen.Pre_finite_inputs
import proofs.«128320_j55800215110096_2_alg».proof.Proof.Gen.ReferenceIdeal.Run
import proofs.«128320_j55800215110096_2_alg».proof.Proof.Gen.ReferenceIdeal.Read
import proofs.«128320_j55800215110096_2_alg».proof.Proof.Spec
import proofs.«128320_j55800215110096_2_alg».proof.Proof.KernelRun
import proofs.«128320_j55800215110096_2_alg».proof.Proof.RefValue

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on f and c, both programs end with the result array at the same function of f and c. -/
theorem algebraic : Cert.algebraic_KernelIdeal_ReferenceIdeal := by
  intro m ρ m' ρ' _ hagree
  refine ⟨fun c => Cert.Dist.G (Cert.KernelIdeal.Dist.argF m c) (Cert.KernelIdeal.Dist.argC m c),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Dist.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
